-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x56x56x256 : Shape := ⟨4, ![16, 56, 56, 256]⟩
abbrev S_ : Shape := ⟨0, ![]⟩

class Facts : Prop where
  bcast_S_S16x56x56x256 : S_.BroadcastsInDim S16x56x56x256 (![] : Fin 0 → Fin S16x56x56x256.rank)
  reducesTo_S16x56x56x256_S_d0_1_2_3 : S16x56x56x256.ReducesTo [0, 1, 2, 3] S_
  h_S_ : 0 < S_.numel

variable [Facts]

def fn_part1 {F : FTy → Type} [FloatOps F] (main_arg4 : FVec F S16x56x56x256 .f32) (main_v13 : IVec S_ 1) (main_v16 : IVec S16x56x56x256 1) : IVec S_ 1 :=
  let main_c_5 : IVec S_ 1 := constantI S_ 1 1#1
  let main_v17 : IVec S_ 1 := (fun x v => Host.reduce IntOp.andi x v reducesTo_S16x56x56x256_S_d0_1_2_3 h_S_) main_v16 main_c_5
  let main_v18 : IVec S_ 1 := andi main_v13 main_v17
  let main_v19 : FVec F S16x56x56x256 .f32 := Host.absf main_arg4
  let main_cst_6 : FVec F S_ .f32 := constant S_ .f32 0x7F800000#32
  let main_v20 : FVec F S16x56x56x256 .f32 := broadcastInDim S16x56x56x256 ![] bcast_S_S16x56x56x256 main_cst_6
  let main_v21 : IVec S16x56x56x256 1 := cmpf .olt main_v19 main_v20
  let main_c_7 : IVec S_ 1 := constantI S_ 1 1#1
  let main_v22 : IVec S_ 1 := (fun x v => Host.reduce IntOp.andi x v reducesTo_S16x56x56x256_S_d0_1_2_3 h_S_) main_v21 main_c_7
  let main_v23 : IVec S_ 1 := andi main_v18 main_v22
  main_v23

def fn {F : FTy → Type} [FloatOps F] (main_arg0 : FVec F S16x56x56x256 .f32) (main_arg1 : FVec F S16x56x56x256 .f32) (main_arg2 : FVec F S16x56x56x256 .f32) (main_arg3 : FVec F S16x56x56x256 .f32) (main_arg4 : FVec F S16x56x56x256 .f32) : IVec S_ 1 :=
  let main_v0 : FVec F S16x56x56x256 .f32 := Host.absf main_arg0
  let main_cst : FVec F S_ .f32 := constant S_ .f32 0x7F800000#32
  let main_v1 : FVec F S16x56x56x256 .f32 := broadcastInDim S16x56x56x256 ![] bcast_S_S16x56x56x256 main_cst
  let main_v2 : IVec S16x56x56x256 1 := cmpf .olt main_v0 main_v1
  let main_c : IVec S_ 1 := constantI S_ 1 1#1
  let main_v3 : IVec S_ 1 := (fun x v => Host.reduce IntOp.andi x v reducesTo_S16x56x56x256_S_d0_1_2_3 h_S_) main_v2 main_c
  let main_v4 : FVec F S16x56x56x256 .f32 := Host.absf main_arg1
  let main_cst_0 : FVec F S_ .f32 := constant S_ .f32 0x7F800000#32
  let main_v5 : FVec F S16x56x56x256 .f32 := broadcastInDim S16x56x56x256 ![] bcast_S_S16x56x56x256 main_cst_0
  let main_v6 : IVec S16x56x56x256 1 := cmpf .olt main_v4 main_v5
  let main_c_1 : IVec S_ 1 := constantI S_ 1 1#1
  let main_v7 : IVec S_ 1 := (fun x v => Host.reduce IntOp.andi x v reducesTo_S16x56x56x256_S_d0_1_2_3 h_S_) main_v6 main_c_1
  let main_v8 : IVec S_ 1 := andi main_v3 main_v7
  let main_v9 : FVec F S16x56x56x256 .f32 := Host.absf main_arg2
  let main_cst_2 : FVec F S_ .f32 := constant S_ .f32 0x7F800000#32
  let main_v10 : FVec F S16x56x56x256 .f32 := broadcastInDim S16x56x56x256 ![] bcast_S_S16x56x56x256 main_cst_2
  let main_v11 : IVec S16x56x56x256 1 := cmpf .olt main_v9 main_v10
  let main_c_3 : IVec S_ 1 := constantI S_ 1 1#1
  let main_v12 : IVec S_ 1 := (fun x v => Host.reduce IntOp.andi x v reducesTo_S16x56x56x256_S_d0_1_2_3 h_S_) main_v11 main_c_3
  let main_v13 : IVec S_ 1 := andi main_v8 main_v12
  let main_v14 : FVec F S16x56x56x256 .f32 := Host.absf main_arg3
  let main_cst_4 : FVec F S_ .f32 := constant S_ .f32 0x7F800000#32
  let main_v15 : FVec F S16x56x56x256 .f32 := broadcastInDim S16x56x56x256 ![] bcast_S_S16x56x56x256 main_cst_4
  let main_v16 : IVec S16x56x56x256 1 := cmpf .olt main_v14 main_v15
  fn_part1 (F := F) main_arg4 main_v13 main_v16
-- ==== Kernel.lean ====
abbrev S16x56x56x256 : Shape := ⟨4, ![16, 56, 56, 256]⟩
abbrev S50176x256 : Shape := ⟨2, ![50176, 256]⟩
abbrev S6x50176x256 : Shape := ⟨3, ![6, 50176, 256]⟩
abbrev S1792x256 : Shape := ⟨2, ![1792, 256]⟩
abbrev S6x1792x256 : Shape := ⟨3, ![6, 1792, 256]⟩
abbrev S1x1792x256 : Shape := ⟨3, ![1, 1792, 256]⟩
abbrev S6x16x56x56x256 : Shape := ⟨5, ![6, 16, 56, 56, 256]⟩

abbrev nBuf : Space → Nat
  | .hbm => 12
  | .vmem => 12
  | .smem => 0
  | _ => 0

abbrev bufTy : (tb : Table) → Fin (tcTables nBuf tb) → BufTy
  | .hbm, ⟨0, _⟩ => ⟨S16x56x56x256, .f32⟩
  | .hbm, ⟨1, _⟩ => ⟨S16x56x56x256, .f32⟩
  | .hbm, ⟨2, _⟩ => ⟨S16x56x56x256, .f32⟩
  | .hbm, ⟨3, _⟩ => ⟨S16x56x56x256, .f32⟩
  | .hbm, ⟨4, _⟩ => ⟨S16x56x56x256, .f32⟩
  | .hbm, ⟨5, _⟩ => ⟨S50176x256, .f32⟩
  | .hbm, ⟨6, _⟩ => ⟨S50176x256, .f32⟩
  | .hbm, ⟨7, _⟩ => ⟨S50176x256, .f32⟩
  | .hbm, ⟨8, _⟩ => ⟨S50176x256, .f32⟩
  | .hbm, ⟨9, _⟩ => ⟨S50176x256, .f32⟩
  | .hbm, ⟨10, _⟩ => ⟨S6x50176x256, .f32⟩
  | .hbm, ⟨11, _⟩ => ⟨S6x16x56x56x256, .f32⟩
  | .local _ .vmem, ⟨0, _⟩ => ⟨S1792x256, .f32⟩
  | .local _ .vmem, ⟨1, _⟩ => ⟨S1792x256, .f32⟩
  | .local _ .vmem, ⟨2, _⟩ => ⟨S1792x256, .f32⟩
  | .local _ .vmem, ⟨3, _⟩ => ⟨S1792x256, .f32⟩
  | .local _ .vmem, ⟨4, _⟩ => ⟨S1792x256, .f32⟩
  | .local _ .vmem, ⟨5, _⟩ => ⟨S1792x256, .f32⟩
  | .local _ .vmem, ⟨6, _⟩ => ⟨S1792x256, .f32⟩
  | .local _ .vmem, ⟨7, _⟩ => ⟨S1792x256, .f32⟩
  | .local _ .vmem, ⟨8, _⟩ => ⟨S1792x256, .f32⟩
  | .local _ .vmem, ⟨9, _⟩ => ⟨S1792x256, .f32⟩
  | .local _ .vmem, ⟨10, _⟩ => ⟨S6x1792x256, .f32⟩
  | .local _ .vmem, ⟨11, _⟩ => ⟨S6x1792x256, .f32⟩
  | _, _ => ⟨S16x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1792x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1792x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1792x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1792x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x1792x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x56x56x256_S50176x256 : S16x56x56x256.ShapeCasts S50176x256
  inb_S1792x256_S1792x256_0_0 : ∀ a, (![0, 0] : Fin 2 → Nat) a + S1792x256.size a ≤ S1792x256.size a
  h_S1792x256 : 0 < S1792x256.numel
  shapeCasts_S1792x256_S1792x256 : S1792x256.ShapeCasts S1792x256
  natLt_1_32 : 1 < 32
  inb_S6x1792x256_S1x1792x256_0_0_0 : ∀ a, (![0, 0, 0] : Fin 3 → Nat) a + S1x1792x256.size a ≤ S6x1792x256.size a
  h_S1x1792x256 : 0 < S1x1792x256.numel
  shapeCasts_S1x1792x256_S1792x256 : S1x1792x256.ShapeCasts S1792x256
  shapeCasts_S1792x256_S1x1792x256 : S1792x256.ShapeCasts S1x1792x256
  inb_S6x1792x256_S1x1792x256_1_0_0 : ∀ a, (![1, 0, 0] : Fin 3 → Nat) a + S1x1792x256.size a ≤ S6x1792x256.size a
  inb_S6x1792x256_S1x1792x256_2_0_0 : ∀ a, (![2, 0, 0] : Fin 3 → Nat) a + S1x1792x256.size a ≤ S6x1792x256.size a
  inb_S6x1792x256_S1x1792x256_3_0_0 : ∀ a, (![3, 0, 0] : Fin 3 → Nat) a + S1x1792x256.size a ≤ S6x1792x256.size a
  inb_S6x1792x256_S1x1792x256_4_0_0 : ∀ a, (![4, 0, 0] : Fin 3 → Nat) a + S1x1792x256.size a ≤ S6x1792x256.size a
  inb_S6x1792x256_S1x1792x256_5_0_0 : ∀ a, (![5, 0, 0] : Fin 3 → Nat) a + S1x1792x256.size a ≤ S6x1792x256.size a
  shapeCasts_S6x50176x256_S6x16x56x56x256 : S6x50176x256.ShapeCasts S6x16x56x56x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1792x256.size a ≤ S50176x256.size a
  hwx0_0 : ∀ i : grid0.Coords, EltTy.bits .f32 = 32 ∨ (Rect.block (s := S50176x256) S1792x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x256.size a ≤ S50176x256.size a
  hwx0_1 : ∀ i : grid0.Coords, EltTy.bits .f32 = 32 ∨ (Rect.block (s := S50176x256) S1792x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1792x256.size a ≤ S50176x256.size a
  hwx0_2 : ∀ i : grid0.Coords, EltTy.bits .f32 = 32 ∨ (Rect.block (s := S50176x256) S1792x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1792x256.size a ≤ S50176x256.size a
  hwx0_3 : ∀ i : grid0.Coords, EltTy.bits .f32 = 32 ∨ (Rect.block (s := S50176x256) S1792x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1792x256.size a ≤ S50176x256.size a
  hwx0_4 : ∀ i : grid0.Coords, EltTy.bits .f32 = 32 ∨ (Rect.block (s := S50176x256) S1792x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6x1792x256.size a ≤ S6x50176x256.size a
  hwx0_5 : ∀ i : grid0.Coords, EltTy.bits .f32 = 32 ∨ (Rect.block (s := S6x50176x256) S6x1792x256.size (cc0_transform_5 i) (hinb0_5 i)).WholeWords (EltTy.packing .f32)

variable [Facts₀]

abbrev win0_0 : Pipeline.Window sig grid0 :=
  Pipeline.Window.ofSpec (Memref.whole main_v0) S1792x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1792x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1792x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1792x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1792x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S6x1792x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x56x56x256 : Shape := ⟨4, ![16, 56, 56, 256]⟩
abbrev S_ : Shape := ⟨0, ![]⟩
abbrev S1x16x56x56x256 : Shape := ⟨5, ![1, 16, 56, 56, 256]⟩
abbrev S6x16x56x56x256 : Shape := ⟨5, ![6, 16, 56, 56, 256]⟩

abbrev nBuf : Space → Nat
  | .hbm => 55
  | .vmem => 0
  | .smem => 0
  | _ => 0

abbrev bufTy : (tb : Table) → Fin (tcTables nBuf tb) → BufTy
  | .hbm, ⟨0, _⟩ => ⟨S16x56x56x256, .f32⟩
  | .hbm, ⟨1, _⟩ => ⟨S16x56x56x256, .f32⟩
  | .hbm, ⟨2, _⟩ => ⟨S16x56x56x256, .f32⟩
  | .hbm, ⟨3, _⟩ => ⟨S16x56x56x256, .f32⟩
  | .hbm, ⟨4, _⟩ => ⟨S16x56x56x256, .f32⟩
  | .hbm, ⟨5, _⟩ => ⟨S_, .f32⟩
  | .hbm, ⟨6, _⟩ => ⟨S16x56x56x256, .f32⟩
  | .hbm, ⟨7, _⟩ => ⟨S16x56x56x256, .i1⟩
  | .hbm, ⟨8, _⟩ => ⟨S_, .f32⟩
  | .hbm, ⟨9, _⟩ => ⟨S16x56x56x256, .f32⟩
  | .hbm, ⟨10, _⟩ => ⟨S16x56x56x256, .f32⟩
  | .hbm, ⟨11, _⟩ => ⟨S16x56x56x256, .f32⟩
  | .hbm, ⟨12, _⟩ => ⟨S16x56x56x256, .f32⟩
  | .hbm, ⟨13, _⟩ => ⟨S_, .f32⟩
  | .hbm, ⟨14, _⟩ => ⟨S16x56x56x256, .f32⟩
  | .hbm, ⟨15, _⟩ => ⟨S16x56x56x256, .i1⟩
  | .hbm, ⟨16, _⟩ => ⟨S16x56x56x256, .f32⟩
  | .hbm, ⟨17, _⟩ => ⟨S_, .f32⟩
  | .hbm, ⟨18, _⟩ => ⟨S16x56x56x256, .f32⟩
  | .hbm, ⟨19, _⟩ => ⟨S16x56x56x256, .f32⟩
  | .hbm, ⟨20, _⟩ => ⟨S_, .f32⟩
  | .hbm, ⟨21, _⟩ => ⟨S16x56x56x256, .f32⟩
  | .hbm, ⟨22, _⟩ => ⟨S16x56x56x256, .i1⟩
  | .hbm, ⟨23, _⟩ => ⟨S_, .f32⟩
  | .hbm, ⟨24, _⟩ => ⟨S16x56x56x256, .f32⟩
  | .hbm, ⟨25, _⟩ => ⟨S16x56x56x256, .f32⟩
  | .hbm, ⟨26, _⟩ => ⟨S16x56x56x256, .f32⟩
  | .hbm, ⟨27, _⟩ => ⟨S_, .f32⟩
  | .hbm, ⟨28, _⟩ => ⟨S16x56x56x256, .f32⟩
  | .hbm, ⟨29, _⟩ => ⟨S16x56x56x256, .i1⟩
  | .hbm, ⟨30, _⟩ => ⟨S_, .f32⟩
  | .hbm, ⟨31, _⟩ => ⟨S16x56x56x256, .f32⟩
  | .hbm, ⟨32, _⟩ => ⟨S16x56x56x256, .f32⟩
  | .hbm, ⟨33, _⟩ => ⟨S16x56x56x256, .f32⟩
  | .hbm, ⟨34, _⟩ => ⟨S_, .f32⟩
  | .hbm, ⟨35, _⟩ => ⟨S16x56x56x256, .f32⟩
  | .hbm, ⟨36, _⟩ => ⟨S16x56x56x256, .i1⟩
  | .hbm, ⟨37, _⟩ => ⟨S_, .f32⟩
  | .hbm, ⟨38, _⟩ => ⟨S16x56x56x256, .f32⟩
  | .hbm, ⟨39, _⟩ => ⟨S16x56x56x256, .f32⟩
  | .hbm, ⟨40, _⟩ => ⟨S_, .f32⟩
  | .hbm, ⟨41, _⟩ => ⟨S16x56x56x256, .f32⟩
  | .hbm, ⟨42, _⟩ => ⟨S16x56x56x256, .i1⟩
  | .hbm, ⟨43, _⟩ => ⟨S16x56x56x256, .f32⟩
  | .hbm, ⟨44, _⟩ => ⟨S16x56x56x256, .f32⟩
  | .hbm, ⟨45, _⟩ => ⟨S_, .f32⟩
  | .hbm, ⟨46, _⟩ => ⟨S16x56x56x256, .f32⟩
  | .hbm, ⟨47, _⟩ => ⟨S16x56x56x256, .f32⟩
  | .hbm, ⟨48, _⟩ => ⟨S1x16x56x56x256, .f32⟩
  | .hbm, ⟨49, _⟩ => ⟨S1x16x56x56x256, .f32⟩
  | .hbm, ⟨50, _⟩ => ⟨S1x16x56x56x256, .f32⟩
  | .hbm, ⟨51, _⟩ => ⟨S1x16x56x56x256, .f32⟩
  | .hbm, ⟨52, _⟩ => ⟨S1x16x56x56x256, .f32⟩
  | .hbm, ⟨53, _⟩ => ⟨S1x16x56x56x256, .f32⟩
  | .hbm, ⟨54, _⟩ => ⟨S6x16x56x56x256, .f32⟩
  | _, _ => ⟨S16x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S_S16x56x56x256 : S_.BroadcastsInDim S16x56x56x256 (![] : Fin 0 → Fin S16x56x56x256.rank)
  bcast_S16x56x56x256_S1x16x56x56x256_1_2_3_4 : S16x56x56x256.BroadcastsInDim S1x16x56x56x256 (![1, 2, 3, 4] : Fin 4 → Fin S1x16x56x56x256.rank)
  concatenates_S1x16x56x56x256_S1x16x56x56x256_S1x16x56x56x256_S1x16x56x56x256_S1x16x56x56x256_S1x16x56x56x256_S6x16x56x56x256_d0 : Shape.Concatenates [S1x16x56x56x256, S1x16x56x56x256, S1x16x56x56x256, S1x16x56x56x256, S1x16x56x56x256, S1x16x56x56x256] S6x16x56x56x256 0

variable [Facts₀]

class Facts : Prop extends Facts₀ where

variable [Facts]
-- ==== Proof.Neuron.lean ====
/-
  One time step of one leaky-integrate-and-fire neuron, on the extended reals.

  A neuron holds a membrane potential `mem`, an accumulated potential `acc`, the time `ref` until which it is refractory and a
  spike count `cnt`, and receives an impulse `imp`. With the time fixed at 1/2, the threshold at 1 and the refractory period
  at 2:
    * the impulse that acts is `drive = 0` while the neuron is refractory (`ref > 1/2`), else `imp`;
    * the new potential is `pot = mem + drive`, and the neuron fires when `pot ≥ 1`;
    * a firing neuron emits a spike of height 1, has the threshold taken off its potential, is refractory until 5/2 and counts
      one more spike; the spike train records spike × time.
  Both programs compute the six results `[spike, potential, accumulated potential, refractory-until, count, spike train]`.
  They differ in how they ask "did it fire?": the kernel keeps the comparison's bit `b` and reads it as a number by widening it
  to 32 bits and converting as a signed integer; the reference converts the bit as an unsigned integer to the spike height
  `s = b · 1` and then asks again, of that number, `s > 0`, `s < 0`, `s ≠ 0`. Since `s` is `0` or `1`, `s > 0` and `s ≠ 0` say
  `b = 1` and `s < 0` never holds (so the reference's second reset, which would add the threshold back, never applies): the
  two agree on every extended real, with no condition on the inputs.
-/
import Idealize.ShloMosaic.PureOps.Ideal
import Idealize.ShloMosaic.PureOps.Ideal.Laws
import Idealize.ShloMosaic.Lib.ValueIdx

noncomputable section

namespace Cert.Neuron

open Idealize.ShloMosaic

/-- The time, 1/2 (as the float pattern both programs carry). -/
abbrev time : EReal := Ideal.ofBits .f32 0x3F000000#32
/-- Zero. -/
abbrev zero : EReal := Ideal.ofBits .f32 0x00000000#32
/-- The threshold, 1. -/
abbrev thresh : EReal := Ideal.ofBits .f32 0x3F800000#32
/-- The end of the refractory period of a neuron that fires now, 5/2. -/
abbrev untilT : EReal := Ideal.ofBits .f32 0x40200000#32

theorem zero_eq : zero = 0 := Ideal.ofBits_zero_f32
theorem thresh_eq : thresh = 1 := by
  show Ideal.ofBits .f32 0x3F800000#32 = 1
  simp [Ideal.ofBits, Ideal.ieee, -EReal.coe_mul]; norm_num

/-- The impulse that acts: none while the neuron is refractory. -/
def drive (imp ref : EReal) : EReal := Scalar.select (Ideal.cmp .ogt ref time) zero imp
/-- The new potential. -/
def pot (imp mem ref : EReal) : EReal := mem + drive imp ref
/-- Whether the neuron fires, as the comparison's bit. -/
def fired (imp mem ref : EReal) : BitVec 1 := Ideal.cmp .oge (pot imp mem ref) thresh

/-- The bit read as a number the kernel's way: widened to 32 bits, then as a signed integer. -/
def numK (b : BitVec 1) : EReal := (((b.setWidth 32).toInt : ℝ) : EReal)
/-- The bit read as a number the reference's way: as an unsigned integer. -/
def numR (b : BitVec 1) : EReal := ((b.toNat : ℝ) : EReal)

/-- The six results as the kernel computes them, by channel (a channel past 5 reads as channel 5). -/
def stepK (k : Nat) (imp mem acc ref cnt : EReal) : EReal :=
  match k with
  | 0 => numK (fired imp mem ref) * thresh
  | 1 => Scalar.select (fired imp mem ref) (pot imp mem ref - thresh) (pot imp mem ref)
  | 2 => acc + drive imp ref
  | 3 => Scalar.select (fired imp mem ref) untilT ref
  | 4 => cnt + numK (fired imp mem ref)
  | _ => numK (fired imp mem ref) * thresh * time

/-- The spike as the reference computes it. -/
def spikeR (imp mem ref : EReal) : EReal := numR (fired imp mem ref) * thresh
/-- The potential after the reference's first reset (a positive spike takes the threshold off). -/
def resetR (imp mem ref : EReal) : EReal :=
  Scalar.select (Ideal.cmp .ogt (spikeR imp mem ref) zero) (pot imp mem ref - thresh) (pot imp mem ref)

/-- The six results as the reference computes them, by channel. -/
def stepR (k : Nat) (imp mem acc ref cnt : EReal) : EReal :=
  match k with
  | 0 => spikeR imp mem ref
  | 1 => Scalar.select (Ideal.cmp .olt (spikeR imp mem ref) zero) (resetR imp mem ref + thresh) (resetR imp mem ref)
  | 2 => acc + drive imp ref
  | 3 => Scalar.select (Ideal.cmp .une (spikeR imp mem ref) zero) untilT ref
  | 4 => cnt + numR (Ideal.cmp .une (spikeR imp mem ref) zero)
  | _ => spikeR imp mem ref * time

/-- A bit reads as the same number both ways: 0 or 1. -/
theorem numK_eq_numR (b : BitVec 1) : numK b = numR b := by
  rcases BitVec.eq_zero_or_eq_one b with h | h <;> subst h <;> simp [numK, numR]

/-- The reference's spike is 0 or 1 with the bit. -/
theorem spikeR_zero (imp mem ref : EReal) (h : fired imp mem ref = 0#1) : spikeR imp mem ref = 0 := by
  unfold spikeR; rw [h]; simp [numR]
theorem spikeR_one (imp mem ref : EReal) (h : fired imp mem ref = 1#1) : spikeR imp mem ref = 1 := by
  unfold spikeR; rw [h, thresh_eq]; simp [numR]

/-- **The two programs' neuron steps agree**, channel by channel, on all extended reals. -/
theorem stepK_eq_stepR (k : Nat) (imp mem acc ref cnt : EReal) :
    stepK k imp mem acc ref cnt = stepR k imp mem acc ref cnt := by
  have hs : numK (fired imp mem ref) * thresh = spikeR imp mem ref := by rw [numK_eq_numR]; rfl
  rcases BitVec.eq_zero_or_eq_one (fired imp mem ref) with h | h
  · have s0 := spikeR_zero imp mem ref h
    have c1 : Ideal.cmp .ogt (spikeR imp mem ref) zero = 0#1 := by rw [s0, zero_eq]; simp [Ideal.cmp]
    have c2 : Ideal.cmp .olt (spikeR imp mem ref) zero = 0#1 := by rw [s0, zero_eq]; simp [Ideal.cmp]
    have c3 : Ideal.cmp .une (spikeR imp mem ref) zero = 0#1 := by rw [s0, zero_eq]; simp [Ideal.cmp]
    match k with
    | 0 => exact hs
    | 1 => simp only [stepK, stepR, resetR, c1, c2, h, ValueIdx.select_zero]
    | 2 => rfl
    | 3 => simp only [stepK, stepR, c3, h, ValueIdx.select_zero]
    | 4 => simp only [stepK, stepR, c3, h, numK_eq_numR]
    | _ + 5 => simp only [stepK, stepR, hs]
  · have s1 := spikeR_one imp mem ref h
    have c1 : Ideal.cmp .ogt (spikeR imp mem ref) zero = 1#1 := by rw [s1, zero_eq]; simp [Ideal.cmp]
    have c2 : Ideal.cmp .olt (spikeR imp mem ref) zero = 0#1 := by
      have hn : ¬ ((1 : EReal) < 0) := not_lt.mpr zero_le_one
      rw [s1, zero_eq]; simp [Ideal.cmp, hn]
    have c3 : Ideal.cmp .une (spikeR imp mem ref) zero = 1#1 := by rw [s1, zero_eq]; simp [Ideal.cmp]
    match k with
    | 0 => exact hs
    | 1 => simp only [stepK, stepR, resetR, c1, c2, h, ValueIdx.select_zero, ValueIdx.select_one]
    | 2 => rfl
    | 3 => simp only [stepK, stepR, c3, h, ValueIdx.select_one]
    | 4 => simp only [stepK, stepR, c3, h, numK_eq_numR]
    | _ + 5 => simp only [stepK, stepR, hs]

end Cert.Neuron

end
-- ==== Proof.KernelBlock.lean ====
/-
  What the kernel's body leaves in its output block, element by element.

  At a grid point the body reads five blocks of 1792 rows by 256 lanes — impulse, potential, accumulated potential,
  refractory-until and spike count — and stores six blocks of that size, one per result channel, into the six slabs
  `[k, :, :]` of its output block. Every stored value is a pointwise expression of the five inputs, so the element
  `(k, r, l)` of the output block is channel `k` of the neuron step (`Neuron.stepK`) of the five inputs' elements `(r, l)`.
-/
import proofs.«160507_j66967130079991_2_alg».proof.Proof.Gen.KernelIdeal.Frame
import proofs.«160507_j66967130079991_2_alg».proof.Proof.Neuron
import Idealize.ShloMosaic.Lib.Pipeline.Value
import Idealize.ShloMosaic.Lib.ValueIdx

noncomputable section

open Idealize.ShloMosaic Idealize.ShloMosaic.TcCoe Idealize.SL.Sem

namespace Cert.KernelIdeal.Block

open Cert.KernelIdeal Cert.KernelIdeal.Gen Cert.Neuron

theorem zeros2 : (![0, 0] : Fin 2 → Nat) = fun _ => 0 := funext fun a => by fin_cases a <;> rfl

/-- Element `(k, r, l)` of the output block: channel `k` of the neuron step at row `r`, lane `l` of the five input blocks. -/
def blockG (x0 x1 x2 x3 x4 : Vec Ideal S1792x256 .f32) : Vec Ideal S6x1792x256 .f32 := fun y =>
  stepK (y 0).val (x0 fun a => y a.succ) (x1 fun a => y a.succ) (x2 fun a => y a.succ) (x3 fun a => y a.succ) (x4 fun a => y a.succ)

/-! ## The six stored values at a row and lane -/

section Payloads
variable (x0 x1 x2 x3 x4 : Vec Ideal S1792x256 .f32) (z : S1792x256.Idx)

theorem spike_at : k0_pay11 (F := Ideal) x0 x1 x3 z = stepK 0 (x0 z) (x1 z) (x2 z) (x3 z) (x4 z) := by
  unfold k0_pay11 k0_pay10 k0_pay8 k0_pay7 k0_pay6
  simp only [shapeCast_self]
  rfl

theorem pot_at : k0_pay12 (F := Ideal) x0 x1 x3 z = stepK 1 (x0 z) (x1 z) (x2 z) (x3 z) (x4 z) := by
  unfold k0_pay12 k0_pay10 k0_pay8 k0_pay7 k0_pay6
  simp only [shapeCast_self]
  rfl

theorem acc_at : k0_pay9 (F := Ideal) x0 x2 x3 z = stepK 2 (x0 z) (x1 z) (x2 z) (x3 z) (x4 z) := by
  unfold k0_pay9 k0_pay7 k0_pay6
  simp only [shapeCast_self]
  rfl

theorem until_at : k0_pay13 (F := Ideal) x0 x1 x3 z = stepK 3 (x0 z) (x1 z) (x2 z) (x3 z) (x4 z) := by
  unfold k0_pay13 k0_pay10 k0_pay8 k0_pay7 k0_pay6
  simp only [shapeCast_self]
  rfl

theorem count_at : k0_pay14 (F := Ideal) x0 x1 x3 x4 z = stepK 4 (x0 z) (x1 z) (x2 z) (x3 z) (x4 z) := by
  unfold k0_pay14 k0_pay10 k0_pay8 k0_pay7 k0_pay6
  simp only [shapeCast_self]
  rfl

theorem train_at : k0_pay15 (F := Ideal) x0 x1 x3 z = stepK 5 (x0 z) (x1 z) (x2 z) (x3 z) (x4 z) := by
  unfold k0_pay15 k0_pay11 k0_pay10 k0_pay8 k0_pay7 k0_pay6
  simp only [shapeCast_self]
  rfl

end Payloads

/-! ## One store: a slab of the output block -/

/-- A value `v` that is channel `k` of the neuron step at every row and lane, stored with a leading unit axis into the slab
    `[k, :, :]`, is the block function on that slab. -/
theorem slab (k : Nat) (inb : ∀ a, (![k, 0, 0] : Fin 3 → Nat) a + S1x1792x256.size a ≤ S6x1792x256.size a)
    (v : FVec Ideal S1792x256 .f32) (h : S1792x256.ShapeCasts S1x1792x256)
    (x0 x1 x2 x3 x4 : Vec Ideal S1792x256 .f32)
    (hv : ∀ z, v z = stepK k (x0 z) (x1 z) (x2 z) (x3 z) (x4 z))
    (x : S1x1792x256.Idx) :
    shapeCast S1x1792x256 v h x
      = blockG x0 x1 x2 x3 x4 ((Rect.unit (s := S6x1792x256) ![k, 0, 0] S1x1792x256.size inb).emb x) := by
  refine (shapeCast_addUnit_apply ![1792, 256] v h x).trans ?_
  refine (hv _).trans ?_
  unfold blockG
  have hx0 : (x 0).val < 1 := (x 0).isLt
  have e0 : (((Rect.unit (s := S6x1792x256) ![k, 0, 0] S1x1792x256.size inb).emb x) 0).val = k := by
    rw [Rect.emb_apply]; show k + 1 * (x 0).val = k; omega
  have e1 : (fun a : Fin 2 => ((Rect.unit (s := S6x1792x256) ![k, 0, 0] S1x1792x256.size inb).emb x) a.succ)
      = fun a : Fin 2 => x a.succ := by
    funext a; apply Fin.ext
    match a with
    | ⟨0, _⟩ => show 0 + 1 * (x 1).val = (x 1).val; omega
    | ⟨1, _⟩ => show 0 + 1 * (x 2).val = (x 2).val; omega
  show stepK k _ _ _ _ _ = stepK _ _ _ _ _ _
  rw [e0, e1]

/-! ## The block -/

/-- **The output block after the body** is the block function of the five input blocks. -/
theorem out_apply (x0 x1 x2 x3 x4 : Vec Ideal S1792x256 .f32) (y : S6x1792x256.Idx) :
    out0_5 (F := Ideal) x0 x1 x2 x3 x4 y = blockG x0 x1 x2 x3 x4 y := by
  unfold out0_5
  simp only [View.ld_unit_zero (S := S1792x256) zeros2]
  refine View.canon_apply_of_pieces (blockG x0 x1 x2 x3 x4) _ ?_ y (cover0_5 _ _ _ _ _ _ y)
  intro p hp
  simp only [List.mem_cons, List.mem_nil_iff, or_false] at hp
  rcases hp with rfl | rfl | rfl | rfl | rfl | rfl
  · intro x; exact slab 5 Facts₀.inb_S6x1792x256_S1x1792x256_5_0_0 _ _ x0 x1 x2 x3 x4 (fun z => train_at x0 x1 x2 x3 x4 z) x
  · intro x; exact slab 4 Facts₀.inb_S6x1792x256_S1x1792x256_4_0_0 _ _ x0 x1 x2 x3 x4 (fun z => count_at x0 x1 x2 x3 x4 z) x
  · intro x; exact slab 3 Facts₀.inb_S6x1792x256_S1x1792x256_3_0_0 _ _ x0 x1 x2 x3 x4 (fun z => until_at x0 x1 x2 x3 x4 z) x
  · intro x; exact slab 2 Facts₀.inb_S6x1792x256_S1x1792x256_2_0_0 _ _ x0 x1 x2 x3 x4 (fun z => acc_at x0 x1 x2 x3 x4 z) x
  · intro x; exact slab 1 Facts₀.inb_S6x1792x256_S1x1792x256_1_0_0 _ _ x0 x1 x2 x3 x4 (fun z => pot_at x0 x1 x2 x3 x4 z) x
  · intro x; exact slab 0 Facts₀.inb_S6x1792x256_S1x1792x256_0_0_0 _ _ x0 x1 x2 x3 x4 (fun z => spike_at x0 x1 x2 x3 x4 z) x

end Cert.KernelIdeal.Block

end
-- ==== Proof.KernelArray.lean ====
/-
  From blocks to the array: what the kernel's output array holds after the region.

  The grid has 28 points; point `t` reads rows `1792 t … 1792 t + 1791` of each of the five [50176, 256] input arrays and writes
  back the block `[0:6, 1792 t : 1792 (t+1), 0:256]` of the [6, 50176, 256] output array. The block's element `(k, r, l)` is channel
  `k` of the neuron step of the input blocks' elements `(r, l)` (`Block.out_apply`), and those are the input arrays' elements
  `(1792 t + r, l)`: so each written block is the restriction of ONE function of the whole input arrays, `arrayG`, and since
  the 28 blocks tile the rows the output array ends holding `arrayG` everywhere.
-/
import proofs.«160507_j66967130079991_2_alg».proof.Proof.KernelBlock

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.Neuron Cert.KernelIdeal.Block

variable (m : (ℓ : Loc nD τ sig) → Buf (Elt Ideal) ℓ)

/-- Element `(k, R, l)` of the output array: channel `k` of the neuron step at row `R`, lane `l` of the five input arrays. -/
def arrayG (a0 a1 a2 a3 a4 : Vec Ideal S50176x256 .f32) : Vec Ideal S6x50176x256 .f32 := fun i =>
  stepK (i 0).val (a0 fun a => i a.succ) (a1 fun a => i a.succ) (a2 fun a => i a.succ) (a3 fun a => i a.succ) (a4 fun a => i a.succ)

/-- The index maps over the grid: the output block sits at block row `t` (block index 0 on the channel and lane axes), and
    every input block sits at the same block row, block index 0 on the lanes. -/
theorem idx_facts : ∀ t : Fin cfg0.N,
    win0_5.index t (0 : Fin 3) = 0 ∧ win0_5.index t (2 : Fin 3) = 0
    ∧ win0_0.index t (0 : Fin 2) = win0_5.index t (1 : Fin 3) ∧ win0_0.index t (1 : Fin 2) = 0
    ∧ win0_1.index t (0 : Fin 2) = win0_5.index t (1 : Fin 3) ∧ win0_1.index t (1 : Fin 2) = 0
    ∧ win0_2.index t (0 : Fin 2) = win0_5.index t (1 : Fin 3) ∧ win0_2.index t (1 : Fin 2) = 0
    ∧ win0_3.index t (0 : Fin 2) = win0_5.index t (1 : Fin 3) ∧ win0_3.index t (1 : Fin 2) = 0
    ∧ win0_4.index t (0 : Fin 2) = win0_5.index t (1 : Fin 3) ∧ win0_4.index t (1 : Fin 2) = 0 :=
  (by decide +kernel : ∀ t : Fin grid0.N, _)

/-- Every block row is some point's. -/
theorem idx_onto : ∀ q : Fin 28, ∃ t : Fin cfg0.N, win0_5.index t (1 : Fin 3) = q.val :=
  (by decide +kernel : ∀ q : Fin 28, ∃ t : Fin grid0.N, win0_5.index t (1 : Fin 3) = q.val)

/-! ## The input blocks as rows of the input arrays -/

/-- Input window 0 (impulse): the element of its block at point `t` under output-block element `y` is the array's element under `y`. -/
theorem in0 (c : Dev nD) (t : Fin cfg0.N) (y : S6x1792x256.Idx) :
    (iblk m c 0 t : Vec Ideal S1792x256 .f32) (fun a => y a.succ)
      = (V m c main_v0 : Vec Ideal S50176x256 .f32) (fun a => (((cfg0.win 5).blk t).view.emb y) a.succ) := by
  obtain ⟨e50, e52, e00, e01, e10, e11, e20, e21, e30, e31, e40, e41⟩ := idx_facts t
  show (V m c main_v0 : Vec Ideal S50176x256 .f32) (((cfg0.win 0).blk t).view.emb (fun a => y a.succ)) = _
  refine congrArg (V m c main_v0 : Vec Ideal S50176x256 .f32) (funext fun a => Fin.ext ?_)
  match a with
  | ⟨0, _⟩ =>
    show win0_0.index t (0 : Fin 2) * 1792 + 1 * (y 1).val = win0_5.index t (1 : Fin 3) * 1792 + 1 * (y 1).val
    rw [e00]
  | ⟨1, _⟩ =>
    show win0_0.index t (1 : Fin 2) * 256 + 1 * (y 2).val = win0_5.index t (2 : Fin 3) * 256 + 1 * (y 2).val
    rw [e01, e52]

/-- Input window 1 (potential): the element of its block at point `t` under output-block element `y` is the array's element under `y`. -/
theorem in1 (c : Dev nD) (t : Fin cfg0.N) (y : S6x1792x256.Idx) :
    (iblk m c 1 t : Vec Ideal S1792x256 .f32) (fun a => y a.succ)
      = (V m c main_v1 : Vec Ideal S50176x256 .f32) (fun a => (((cfg0.win 5).blk t).view.emb y) a.succ) := by
  obtain ⟨e50, e52, e00, e01, e10, e11, e20, e21, e30, e31, e40, e41⟩ := idx_facts t
  show (V m c main_v1 : Vec Ideal S50176x256 .f32) (((cfg0.win 1).blk t).view.emb (fun a => y a.succ)) = _
  refine congrArg (V m c main_v1 : Vec Ideal S50176x256 .f32) (funext fun a => Fin.ext ?_)
  match a with
  | ⟨0, _⟩ =>
    show win0_1.index t (0 : Fin 2) * 1792 + 1 * (y 1).val = win0_5.index t (1 : Fin 3) * 1792 + 1 * (y 1).val
    rw [e10]
  | ⟨1, _⟩ =>
    show win0_1.index t (1 : Fin 2) * 256 + 1 * (y 2).val = win0_5.index t (2 : Fin 3) * 256 + 1 * (y 2).val
    rw [e11, e52]

/-- Input window 2 (accumulated potential): the element of its block at point `t` under output-block element `y` is the array's element under `y`. -/
theorem in2 (c : Dev nD) (t : Fin cfg0.N) (y : S6x1792x256.Idx) :
    (iblk m c 2 t : Vec Ideal S1792x256 .f32) (fun a => y a.succ)
      = (V m c main_v2 : Vec Ideal S50176x256 .f32) (fun a => (((cfg0.win 5).blk t).view.emb y) a.succ) := by
  obtain ⟨e50, e52, e00, e01, e10, e11, e20, e21, e30, e31, e40, e41⟩ := idx_facts t
  show (V m c main_v2 : Vec Ideal S50176x256 .f32) (((cfg0.win 2).blk t).view.emb (fun a => y a.succ)) = _
  refine congrArg (V m c main_v2 : Vec Ideal S50176x256 .f32) (funext fun a => Fin.ext ?_)
  match a with
  | ⟨0, _⟩ =>
    show win0_2.index t (0 : Fin 2) * 1792 + 1 * (y 1).val = win0_5.index t (1 : Fin 3) * 1792 + 1 * (y 1).val
    rw [e20]
  | ⟨1, _⟩ =>
    show win0_2.index t (1 : Fin 2) * 256 + 1 * (y 2).val = win0_5.index t (2 : Fin 3) * 256 + 1 * (y 2).val
    rw [e21, e52]

/-- Input window 3 (refractory-until): the element of its block at point `t` under output-block element `y` is the array's element under `y`. -/
theorem in3 (c : Dev nD) (t : Fin cfg0.N) (y : S6x1792x256.Idx) :
    (iblk m c 3 t : Vec Ideal S1792x256 .f32) (fun a => y a.succ)
      = (V m c main_v3 : Vec Ideal S50176x256 .f32) (fun a => (((cfg0.win 5).blk t).view.emb y) a.succ) := by
  obtain ⟨e50, e52, e00, e01, e10, e11, e20, e21, e30, e31, e40, e41⟩ := idx_facts t
  show (V m c main_v3 : Vec Ideal S50176x256 .f32) (((cfg0.win 3).blk t).view.emb (fun a => y a.succ)) = _
  refine congrArg (V m c main_v3 : Vec Ideal S50176x256 .f32) (funext fun a => Fin.ext ?_)
  match a with
  | ⟨0, _⟩ =>
    show win0_3.index t (0 : Fin 2) * 1792 + 1 * (y 1).val = win0_5.index t (1 : Fin 3) * 1792 + 1 * (y 1).val
    rw [e30]
  | ⟨1, _⟩ =>
    show win0_3.index t (1 : Fin 2) * 256 + 1 * (y 2).val = win0_5.index t (2 : Fin 3) * 256 + 1 * (y 2).val
    rw [e31, e52]

/-- Input window 4 (spike count): the element of its block at point `t` under output-block element `y` is the array's element under `y`. -/
theorem in4 (c : Dev nD) (t : Fin cfg0.N) (y : S6x1792x256.Idx) :
    (iblk m c 4 t : Vec Ideal S1792x256 .f32) (fun a => y a.succ)
      = (V m c main_v4 : Vec Ideal S50176x256 .f32) (fun a => (((cfg0.win 5).blk t).view.emb y) a.succ) := by
  obtain ⟨e50, e52, e00, e01, e10, e11, e20, e21, e30, e31, e40, e41⟩ := idx_facts t
  show (V m c main_v4 : Vec Ideal S50176x256 .f32) (((cfg0.win 4).blk t).view.emb (fun a => y a.succ)) = _
  refine congrArg (V m c main_v4 : Vec Ideal S50176x256 .f32) (funext fun a => Fin.ext ?_)
  match a with
  | ⟨0, _⟩ =>
    show win0_4.index t (0 : Fin 2) * 1792 + 1 * (y 1).val = win0_5.index t (1 : Fin 3) * 1792 + 1 * (y 1).val
    rw [e40]
  | ⟨1, _⟩ =>
    show win0_4.index t (1 : Fin 2) * 256 + 1 * (y 2).val = win0_5.index t (2 : Fin 3) * 256 + 1 * (y 2).val
    rw [e41, e52]

/-! ## What a point writes back -/

/-- **What point `t` writes back** is block `t` of `arrayG` of the input arrays as the region finds them. -/
theorem flushed_eq (c : Dev nD) (t : Fin cfg0.N) :
    (dats m 0 c).flushed 5 t = ((cfg0.win 5).blk t).view.read (Elt Ideal)
      (arrayG (V m c main_v0) (V m c main_v1) (V m c main_v2) (V m c main_v3) (V m c main_v4)) := by
  show (cfg0.win 5).cut (grid0.coords t) ((dats m 0 c).after 5 t) = _
  rw [after0_5]
  obtain ⟨e50, e52, -⟩ := idx_facts t
  funext y
  show out0_5 (iblk m c 0 t) (iblk m c 1 t) (iblk m c 2 t) (iblk m c 3 t) (iblk m c 4 t) y
    = arrayG (V m c main_v0) (V m c main_v1) (V m c main_v2) (V m c main_v3) (V m c main_v4) (((cfg0.win 5).blk t).view.emb y)
  refine (out_apply (iblk m c 0 t) (iblk m c 1 t) (iblk m c 2 t) (iblk m c 3 t) (iblk m c 4 t) y).trans ?_
  have k0 : ((((cfg0.win 5).blk t).view.emb y) 0).val = (y 0).val := by
    show win0_5.index t (0 : Fin 3) * 6 + 1 * (y 0).val = (y 0).val
    rw [e50]; omega
  show stepK (y 0).val _ _ _ _ _ = stepK ((((cfg0.win 5).blk t).view.emb y) 0).val _ _ _ _ _
  rw [k0]
  exact congr (congr (congr (congr (congrArg (stepK (y 0).val) (in0 m c t y)) (in1 m c t y)) (in2 m c t y)) (in3 m c t y)) (in4 m c t y)

/-! ## The blocks tile the array -/

/-- An index of the array is in point `t`'s block iff each coordinate is in the block's range on its axis. -/
theorem mem_blk (t : Fin cfg0.N) (i : S6x50176x256.Idx) :
    i ∈ ((cfg0.win 5).blk t).view.set ↔ ∀ a : Fin 3, win0_5.index t a * S6x1792x256.size a ≤ (i a).val
      ∧ (i a).val < win0_5.index t a * S6x1792x256.size a + S6x1792x256.size a := by
  show i ∈ ((View.whole main_v5).slice (win0_5.rect t)).set ↔ _
  rw [View.set_slice_whole, Rect.mem_set_unit]
  exact Iff.rfl

/-- Row `R` lies in the block of the point at block row `R / 1792`. -/
theorem cover (i : S6x50176x256.Idx) :
    ∃ t : Fin cfg0.N, (cfg0.win 5).flush t = true ∧ i ∈ ((cfg0.win 5).blk t).view.set := by
  have hi0 : (i 0).val < 6 := (i 0).isLt
  have hi1 : (i 1).val < 50176 := (i 1).isLt
  have hi2 : (i 2).val < 256 := (i 2).isLt
  obtain ⟨t, ht⟩ := idx_onto ⟨(i 1).val / 1792, by omega⟩
  obtain ⟨e50, e52, -⟩ := idx_facts t
  have q1 : win0_5.index t (1 : Fin 3) = (i 1).val / 1792 := ht
  refine ⟨t, flush0_5 t, ?_⟩
  rw [mem_blk]
  intro a
  match a with
  | ⟨0, _⟩ =>
    show win0_5.index t (0 : Fin 3) * 6 ≤ (i 0).val ∧ (i 0).val < win0_5.index t (0 : Fin 3) * 6 + 6
    omega
  | ⟨1, _⟩ =>
    show win0_5.index t (1 : Fin 3) * 1792 ≤ (i 1).val ∧ (i 1).val < win0_5.index t (1 : Fin 3) * 1792 + 1792
    omega
  | ⟨2, _⟩ =>
    show win0_5.index t (2 : Fin 3) * 256 ≤ (i 2).val ∧ (i 2).val < win0_5.index t (2 : Fin 3) * 256 + 256
    omega

/-- **The output array after the region** is `arrayG` of the input arrays as the region finds them. -/
theorem final (c : Dev nD) : (dats m 0 c).arrAt 5 cfg0.N
    = arrayG (V m c main_v0) (V m c main_v1) (V m c main_v2) (V m c main_v3) (V m c main_v4) :=
  (dats m 0 c).arrAt_eq_of_cover 5 _ (fun t _ => flushed_eq m c t) cover

end Cert.KernelIdeal.Array

end
-- ==== Proof.KernelHost.lean ====
/-
  The host operations around the region.

  Before the region each of the five [16, 56, 56, 256] arguments is reshaped to [50176, 256] (the three leading axes flattened
  into rows); after it the [6, 50176, 256] output array is reshaped to the [6, 16, 56, 56, 256] result. A reshape keeps the
  row-major order of the elements.
-/
import proofs.«160507_j66967130079991_2_alg».proof.Proof.KernelArray
import Idealize.ShloMosaic.Lib.StableHlo.Run

noncomputable section

open Idealize.ShloMosaic Idealize.ShloMosaic.TcCoe Idealize.SL.Sem
open Idealize.ShloMosaic.Pipeline (Dat)

namespace Cert.KernelIdeal.Host

open Cert.KernelIdeal Cert.KernelIdeal.Gen Cert.KernelIdeal.Array

variable (m : (ℓ : Loc nD τ sig) → Buf (Elt Ideal) ℓ)

/-! ## Before the region -/

/-- The impulse array as the region finds it: the argument, rows flattened. -/
theorem V_v0 (c : Dev nD) : (V m c main_v0 : Vec Ideal S50176x256 .f32)
    = shapeCast S50176x256 (m ((c : Thread nD τ).loc main_arg0)) Facts₀.shapeCasts_S16x56x56x256_S50176x256 := by
  show StableHlo.after hostOps0 (fun b => m (c, b)) (Proc.devRef .tc main_v0) = _
  after_results
  rfl

/-- The potential array as the region finds it: the argument, rows flattened. -/
theorem V_v1 (c : Dev nD) : (V m c main_v1 : Vec Ideal S50176x256 .f32)
    = shapeCast S50176x256 (m ((c : Thread nD τ).loc main_arg1)) Facts₀.shapeCasts_S16x56x56x256_S50176x256 := by
  show StableHlo.after hostOps0 (fun b => m (c, b)) (Proc.devRef .tc main_v1) = _
  after_results
  rfl

/-- The accumulated potential array as the region finds it: the argument, rows flattened. -/
theorem V_v2 (c : Dev nD) : (V m c main_v2 : Vec Ideal S50176x256 .f32)
    = shapeCast S50176x256 (m ((c : Thread nD τ).loc main_arg2)) Facts₀.shapeCasts_S16x56x56x256_S50176x256 := by
  show StableHlo.after hostOps0 (fun b => m (c, b)) (Proc.devRef .tc main_v2) = _
  after_results
  rfl

/-- The refractory-until array as the region finds it: the argument, rows flattened. -/
theorem V_v3 (c : Dev nD) : (V m c main_v3 : Vec Ideal S50176x256 .f32)
    = shapeCast S50176x256 (m ((c : Thread nD τ).loc main_arg3)) Facts₀.shapeCasts_S16x56x56x256_S50176x256 := by
  show StableHlo.after hostOps0 (fun b => m (c, b)) (Proc.devRef .tc main_v3) = _
  after_results
  rfl

/-- The spike count array as the region finds it: the argument, rows flattened. -/
theorem V_v4 (c : Dev nD) : (V m c main_v4 : Vec Ideal S50176x256 .f32)
    = shapeCast S50176x256 (m ((c : Thread nD τ).loc main_arg4)) Facts₀.shapeCasts_S16x56x56x256_S50176x256 := by
  show StableHlo.after hostOps0 (fun b => m (c, b)) (Proc.devRef .tc main_v4) = _
  after_results
  rfl

/-! ## After the region -/

/-- The result buffer after the last host operation: the output array as the region leaves it, reshaped. -/
theorem tail_v6 (c : Dev nD) :
    Pipeline.afterTail₀ cfgs (dats m) 0 (V0 m) [hostOps1] c main_v6
      = shapeCast S6x16x56x56x256 ((dats m 0 c).arrAt 5 cfg0.N) Facts₀.shapeCasts_S6x50176x256_S6x16x56x56x256 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = (dats m 0 c).arrAt 5 cfg0.N :=
    Pipeline.withArrays_arr spec0 launch0.win.arr_inj c (V0 m c) _ 5
  exact congrArg (fun A : Vec Ideal S6x50176x256 .f32 =>
    shapeCast S6x16x56x56x256 A Facts₀.shapeCasts_S6x50176x256_S6x16x56x56x256) e

end Cert.KernelIdeal.Host

end
-- ==== Proof.Layer.lean ====
/-
  The layer's step: the neuron step at every position of a [16, 56, 56, 256] feature map, the six result channels stacked on
  a new leading axis. Element `(k, n, h, w, l)` of the result is channel `k` of the neuron step of the five state tensors'
  elements `(n, h, w, l)`. Stated twice — with the kernel's reading of the firing bit and with the reference's — and the two
  are one function (`Neuron.stepK_eq_stepR`, position by position).
-/
import proofs.«160507_j66967130079991_2_alg».proof.Proof.Neuron

noncomputable section

namespace Cert.Layer

open Idealize.ShloMosaic Cert.Neuron

/-- A state tensor's shape. -/
abbrev SArg : Shape := ⟨4, ![16, 56, 56, 256]⟩
/-- The result's shape: six channels of state tensors. -/
abbrev SRes : Shape := ⟨5, ![6, 16, 56, 56, 256]⟩

/-- The result with the kernel's neuron step. -/
def resultK (x0 x1 x2 x3 x4 : SArg.Idx → EReal) : SRes.Idx → EReal := fun j =>
  stepK (j 0).val (x0 fun a => j a.succ) (x1 fun a => j a.succ) (x2 fun a => j a.succ) (x3 fun a => j a.succ) (x4 fun a => j a.succ)

/-- The result with the reference's neuron step. -/
def resultR (x0 x1 x2 x3 x4 : SArg.Idx → EReal) : SRes.Idx → EReal := fun j =>
  stepR (j 0).val (x0 fun a => j a.succ) (x1 fun a => j a.succ) (x2 fun a => j a.succ) (x3 fun a => j a.succ) (x4 fun a => j a.succ)

/-- **One function**: the two neuron steps agree at every position and channel. -/
theorem resultK_eq_resultR (x0 x1 x2 x3 x4 : SArg.Idx → EReal) :
    resultK x0 x1 x2 x3 x4 = resultR x0 x1 x2 x3 x4 :=
  funext fun _ => stepK_eq_stepR _ _ _ _ _ _

end Cert.Layer

end
-- ==== Proof.KernelValue.lean ====
/-
  The kernel's result, as one function of its arguments.

  The output array [6, 50176, 256] holds, at `(k, R, l)`, channel `k` of the neuron step at row `R`, lane `l` of the flattened
  arguments (`Array.final`, `Host.V_v…`); row `R = (n · 56 + h) · 56 + w` of a flattened argument is the argument's position
  `(n, h, w)`, and the result's element `(k, n, h, w, l)` is the output array's `(k, (n · 56 + h) · 56 + w, l)` — both reshapes
  keep the row-major order. So the result is `Layer.resultK` of the arguments, and the run read back says so.
-/
import proofs.«160507_j66967130079991_2_alg».proof.Proof.KernelHost
import proofs.«160507_j66967130079991_2_alg».proof.Proof.Layer

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Array Cert.KernelIdeal.Host Cert.Neuron Cert.Layer
open Idealize.ShloMosaic.ValueIdx

/-- A flattened argument at the rows-and-lanes part of an output-array index `(k, R, l)` with `R = (n · 56 + h) · 56 + w`: the
    argument at position `(n, h, w, l)`. -/
theorem flat_arg (x : Vec Ideal S16x56x56x256 .f32) (h : S16x56x56x256.ShapeCasts S50176x256) (j : S6x16x56x56x256.Idx)
    (k : Fin 6) (R : Fin 50176) (hR : R.val = ((j 1).val * 56 + (j 2).val) * 56 + (j 3).val) (l : Fin 256) (hl : l.val = (j 4).val) :
    shapeCast S50176x256 x h (fun a : Fin 2 => (ix3 k R l) a.succ) = x fun a => j a.succ := by
  refine shapeCast_apply x h _ (fun a => j a.succ) ?_
  refine (Shape.rowMajor_val_four (d := ![16, 56, 56, 256]) (fun a => j a.succ)).trans ?_
  refine Eq.trans ?_ (Shape.rowMajor_val_two (d := ![50176, 256]) (fun a : Fin 2 => (ix3 k R l) a.succ)).symm
  show (((j 1).val * 56 + (j 2).val) * 56 + (j 3).val) * 256 + (j 4).val = R.val * 256 + l.val
  rw [hR, hl]

/-- **The two reshapes around the array function**: the reshaped output array is the layer's step of the arguments. -/
theorem reshaped (x0 x1 x2 x3 x4 : Vec Ideal S16x56x56x256 .f32) (h : S16x56x56x256.ShapeCasts S50176x256)
    (h' : S6x50176x256.ShapeCasts S6x16x56x56x256) :
    shapeCast S6x16x56x56x256 (arrayG (shapeCast S50176x256 x0 h) (shapeCast S50176x256 x1 h) (shapeCast S50176x256 x2 h)
      (shapeCast S50176x256 x3 h) (shapeCast S50176x256 x4 h)) h' = resultK x0 x1 x2 x3 x4 := by
  funext j
  have b0 : (j 0).val < 6 := (j 0).isLt
  have b1 : (j 1).val < 16 := (j 1).isLt
  have b2 : (j 2).val < 56 := (j 2).isLt
  have b3 : (j 3).val < 56 := (j 3).isLt
  have b4 : (j 4).val < 256 := (j 4).isLt
  let k : Fin 6 := ⟨(j 0).val, b0⟩
  let R : Fin 50176 := ⟨((j 1).val * 56 + (j 2).val) * 56 + (j 3).val, by omega⟩
  let l : Fin 256 := ⟨(j 4).val, b4⟩
  refine (shapeCast_apply _ h' j (ix3 k R l) ?_).trans ?_
  · refine (Shape.rowMajor_val_three (d := ![6, 50176, 256]) (ix3 k R l)).trans ?_
    refine Eq.trans ?_ (Shape.rowMajor_val_five (d := ![6, 16, 56, 56, 256]) j).symm
    show ((j 0).val * 50176 + (((j 1).val * 56 + (j 2).val) * 56 + (j 3).val)) * 256 + (j 4).val
      = (((((j 0).val * 16 + (j 1).val) * 56 + (j 2).val) * 56 + (j 3).val) * 256 + (j 4).val)
    omega
  · show stepK (j 0).val _ _ _ _ _ = stepK (j 0).val _ _ _ _ _
    exact congr (congr (congr (congr (congrArg (stepK (j 0).val) (flat_arg x0 h j k R rfl l rfl)) (flat_arg x1 h j k R rfl l rfl))
      (flat_arg x2 h j k R rfl l rfl)) (flat_arg x3 h j k R rfl l rfl)) (flat_arg x4 h j k R rfl l rfl)

variable (m : (ℓ : Loc nD τ sig) → Buf (Elt Ideal) ℓ) (ρ : Dev nD → PrngReg)

/-- The result buffer after the whole program: the layer's step of the arguments as launched. -/
theorem result_eq (c : Dev nD) :
    Pipeline.afterTail₀ cfgs (dats m) 0 (V0 m) [hostOps1] c main_v6
      = resultK (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_v6, final, V_v0, V_v1, V_v2, V_v3, V_v4]
  exact reshaped _ _ _ _ _ _ _

/-- **The kernel's run, read**: every weakly fair execution terminates with the result buffer at the layer's step of the
    arguments and the arguments unchanged. -/
theorem run : θ_run defs (onTc (τ := τ) (main (F := Ideal))) ⟨m, fun _ => 0, ρ⟩ fun r => ∀ c : Dev nD,
      r.2.mem ((c.tc : Thread nD τ).loc main_v6)
        = resultK (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Value

end
-- ==== Proof.RefValue.lean ====
/-
  The reference's result, as one function of its arguments.

  The reference computes the six result tensors with whole-tensor operations on the [16, 56, 56, 256] state tensors — every one
  pointwise, against constants broadcast from scalars —, gives each a leading unit axis and concatenates the six along it. So
  the result's element `(k, n, h, w, l)` is the `k`-th tensor's element `(n, h, w, l)`, which is channel `k` of the reference's
  neuron step (`Neuron.stepR`) of the arguments' elements there: the result is `Layer.resultR` of the arguments.
-/
import proofs.«160507_j66967130079991_2_alg».proof.Proof.RefRunPatched
import proofs.«160507_j66967130079991_2_alg».proof.Proof.Layer
import Idealize.ShloMosaic.Lib.Pipeline.Value

noncomputable section

open Idealize.ShloMosaic Idealize.ShloMosaic.TcCoe Idealize.SL.Sem

namespace Cert.ReferenceIdeal.RefValue

open Cert.ReferenceIdeal Cert.ReferenceIdeal.Gen Cert.Neuron Cert.Layer

/-- A result index with its channel coordinate set to 0: the index, in a one-channel piece, of the element it reads. -/
def lift (j : S6x16x56x56x256.Idx) : S1x16x56x56x256.Idx := fun a => match a with
  | ⟨0, _⟩ => ⟨0, Nat.one_pos⟩
  | ⟨1, _⟩ => ⟨(j 1).val, (j 1).isLt⟩
  | ⟨2, _⟩ => ⟨(j 2).val, (j 2).isLt⟩
  | ⟨3, _⟩ => ⟨(j 3).val, (j 3).isLt⟩
  | ⟨4, _⟩ => ⟨(j 4).val, (j 4).isLt⟩

/-- Off the channel axis it has the index's coordinates. -/
theorem lift_off (j : S6x16x56x56x256.Idx) :
    ∀ b : Fin 5, b.cast (rfl : (5 : Nat) = 5) ≠ (0 : Fin 5) → (lift j b).val = (j (b.cast (rfl : (5 : Nat) = 5))).val := fun b hb =>
  match b, hb with
  | ⟨0, _⟩, hb => absurd rfl hb
  | ⟨1, _⟩, _ => rfl
  | ⟨2, _⟩, _ => rfl
  | ⟨3, _⟩, _ => rfl
  | ⟨4, _⟩, _ => rfl

/-- A state tensor given a leading unit axis reads, at the lifted index, the tensor at the index's position. -/
theorem lift_on (j : S6x16x56x56x256.Idx) : ∀ a : Fin 4, ((fun a : Fin 4 => j a.succ) a).val
    = if S16x56x56x256.size a = 1 then 0 else (lift j ((![1, 2, 3, 4] : Fin 4 → Fin 5) a)).val := fun a =>
  match a with
  | ⟨0, _⟩ => by show (j 1).val = if (16 : Nat) = 1 then 0 else (j 1).val; rw [if_neg (by decide)]
  | ⟨1, _⟩ => by show (j 2).val = if (56 : Nat) = 1 then 0 else (j 2).val; rw [if_neg (by decide)]
  | ⟨2, _⟩ => by show (j 3).val = if (56 : Nat) = 1 then 0 else (j 3).val; rw [if_neg (by decide)]
  | ⟨3, _⟩ => by show (j 4).val = if (256 : Nat) = 1 then 0 else (j 4).val; rw [if_neg (by decide)]

/-- **The reference's result** is the layer's step, with the reference's neuron step, of the arguments as launched. -/
theorem res_eq (m : (ℓ : Loc nD τ sig) → Buf (Elt Ideal) ℓ) (c : Dev nD) :
    Cert.ReferenceIdeal.ValueP.res_main_v37 (F := Ideal) m c
      = resultR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.ValueP.res_main_v37
  funext j
  have b0 : (j 0).val < 6 := (j 0).isLt
  obtain h0 | h0 | h0 | h0 | h0 | h0 : (j 0).val = 0 ∨ (j 0).val = 1 ∨ (j 0).val = 2 ∨ (j 0).val = 3 ∨ (j 0).val = 4 ∨ (j 0).val = 5 := by
    omega
  · -- channel 0: the spike
    refine Eq.trans (concatenate_apply_piece (0 : Fin 5) _ _ j 0 (by show 0 < 6; omega) S1x16x56x56x256 _ rfl rfl 0 rfl (lift j) (lift_off j)
      (by show 0 + 0 = (j 0).val; omega)) ?_
    refine Eq.trans (broadcastInDim_apply _ bcast_S16x56x56x256_S1x16x56x56x256_1_2_3_4 _ (lift j) (fun a => j a.succ) (lift_on j)) ?_
    show _ = stepR (j 0).val _ _ _ _ _
    rw [h0]
    rfl
  · -- channel 1: the potential after the resets
    refine Eq.trans (concatenate_apply_piece (0 : Fin 5) _ _ j 1 (by show 1 < 6; omega) S1x16x56x56x256 _ rfl rfl 1 rfl (lift j) (lift_off j)
      (by show 1 + 0 = (j 0).val; omega)) ?_
    refine Eq.trans (broadcastInDim_apply _ bcast_S16x56x56x256_S1x16x56x56x256_1_2_3_4 _ (lift j) (fun a => j a.succ) (lift_on j)) ?_
    show _ = stepR (j 0).val _ _ _ _ _
    rw [h0]
    rfl
  · -- channel 2: the accumulated potential
    refine Eq.trans (concatenate_apply_piece (0 : Fin 5) _ _ j 2 (by show 2 < 6; omega) S1x16x56x56x256 _ rfl rfl 2 rfl (lift j) (lift_off j)
      (by show 2 + 0 = (j 0).val; omega)) ?_
    refine Eq.trans (broadcastInDim_apply _ bcast_S16x56x56x256_S1x16x56x56x256_1_2_3_4 _ (lift j) (fun a => j a.succ) (lift_on j)) ?_
    show _ = stepR (j 0).val _ _ _ _ _
    rw [h0]
    rfl
  · -- channel 3: the refractory-until time
    refine Eq.trans (concatenate_apply_piece (0 : Fin 5) _ _ j 3 (by show 3 < 6; omega) S1x16x56x56x256 _ rfl rfl 3 rfl (lift j) (lift_off j)
      (by show 3 + 0 = (j 0).val; omega)) ?_
    refine Eq.trans (broadcastInDim_apply _ bcast_S16x56x56x256_S1x16x56x56x256_1_2_3_4 _ (lift j) (fun a => j a.succ) (lift_on j)) ?_
    show _ = stepR (j 0).val _ _ _ _ _
    rw [h0]
    rfl
  · -- channel 4: the spike count
    refine Eq.trans (concatenate_apply_piece (0 : Fin 5) _ _ j 4 (by show 4 < 6; omega) S1x16x56x56x256 _ rfl rfl 4 rfl (lift j) (lift_off j)
      (by show 4 + 0 = (j 0).val; omega)) ?_
    refine Eq.trans (broadcastInDim_apply _ bcast_S16x56x56x256_S1x16x56x56x256_1_2_3_4 _ (lift j) (fun a => j a.succ) (lift_on j)) ?_
    show _ = stepR (j 0).val _ _ _ _ _
    rw [h0]
    rfl
  · -- channel 5: the spike train
    refine Eq.trans (concatenate_apply_piece (0 : Fin 5) _ _ j 5 (by show 5 < 6; omega) S1x16x56x56x256 _ rfl rfl 5 rfl (lift j) (lift_off j)
      (by show 5 + 0 = (j 0).val; omega)) ?_
    refine Eq.trans (broadcastInDim_apply _ bcast_S16x56x56x256_S1x16x56x56x256_1_2_3_4 _ (lift j) (fun a => j a.succ) (lift_on j)) ?_
    show _ = stepR (j 0).val _ _ _ _ _
    rw [h0]
    rfl

end Cert.ReferenceIdeal.RefValue

end
-- ==== Proof.lean ====
/-
  One time step of a spiking layer — a leaky-integrate-and-fire update of a [16, 56, 56, 256] feature map's state — computed by
  a kernel over 28 row blocks of the flattened state, against the whole-tensor reference: equal results on the
  extended reals.

  Both programs apply, at every position, the same neuron step to the five state tensors (impulse, potential, accumulated
  potential, refractory-until, spike count) and return its six results stacked on a leading axis. They differ only in how the
  firing decision is carried: the kernel keeps the comparison `potential ≥ 1` as a bit and selects on it; the reference turns
  the bit into the spike height `s ∈ {0, 1}` and selects on `s > 0`, `s < 0`, `s ≠ 0`. Those say "fired", "never", "fired"
  (Proof/Neuron.lean), so the results agree on all extended reals: the precondition (finite inputs) is not used.

  The kernel's result: the body's six stores at a row and lane (Proof/KernelBlock.lean), the 28 written blocks tiling the
  output array (Proof/KernelArray.lean), the reshapes before and after the region (Proof/KernelHost.lean), together the layer's
  step of the arguments (Proof/KernelValue.lean). The reference's result: the concatenation of six broadcast pointwise tensors
  read at an index (Proof/RefValue.lean) over its run (Proof/RefRunPatched.lean). The idealization rewrote nothing, so
  `preserves` is `True`.
-/
import proofs.«160507_j66967130079991_2_alg».proof.Defs
import proofs.«160507_j66967130079991_2_alg».proof.Proof.Gen.Kernel
import proofs.«160507_j66967130079991_2_alg».proof.Proof.Gen.Kernel.Skeleton
import proofs.«160507_j66967130079991_2_alg».proof.Proof.Gen.Kernel.Launch
import proofs.«160507_j66967130079991_2_alg».proof.Proof.Gen.Kernel.Points
import proofs.«160507_j66967130079991_2_alg».proof.Proof.Gen.Kernel.Frame
import proofs.«160507_j66967130079991_2_alg».proof.Proof.Gen.KernelIdeal
import proofs.«160507_j66967130079991_2_alg».proof.Proof.Gen.KernelIdeal.Skeleton
import proofs.«160507_j66967130079991_2_alg».proof.Proof.Gen.KernelIdeal.Launch
import proofs.«160507_j66967130079991_2_alg».proof.Proof.Gen.KernelIdeal.Points
import proofs.«160507_j66967130079991_2_alg».proof.Proof.Gen.KernelIdeal.Frame
import proofs.«160507_j66967130079991_2_alg».proof.Proof.Gen.ReferenceIdeal
import proofs.«160507_j66967130079991_2_alg».proof.Proof.Gen.Pre_finite_inputs
import proofs.«160507_j66967130079991_2_alg».proof.Proof.RefRunPatched
import proofs.«160507_j66967130079991_2_alg».proof.Proof.KernelValue
import proofs.«160507_j66967130079991_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From arguments that agree, the kernel ends at the layer's step with its own neuron step and the reference at the layer's
    step with the reference's: one function of the arguments. -/
theorem algebraic : Cert.algebraic_KernelIdeal_ReferenceIdeal := by
  intro m ρ m' ρ' _ hagree
  refine ⟨fun c => Cert.Layer.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq, (hagree c).1, (hagree c).2.1, (hagree c).2.2.1, (hagree c).2.2.2.1,
    (hagree c).2.2.2.2]
  exact (Cert.Layer.resultK_eq_resultR _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
